-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x384 : Shape := ⟨2, ![128, 384]⟩
abbrev S2x800000 : Shape := ⟨2, ![2, 800000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_

variable [Facts]

def fn {F : FTy → Type} [FloatOps F] (main_arg0 : FVec F S100000x128 .f32) (main_arg1 : FVec F S128x384 .f32) (main_arg2 : IVec S2x800000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x384 .f32 := Host.absf main_arg1
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  main_v8
-- ==== Kernel.lean ====
abbrev S100000x128 : Shape := ⟨2, ![100000, 128]⟩
abbrev S128x384 : Shape := ⟨2, ![128, 384]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S128x128 : Shape := ⟨2, ![128, 128]⟩
abbrev S10000x128 : Shape := ⟨2, ![10000, 128]⟩
abbrev S10000x1 : Shape := ⟨2, ![10000, 1]⟩

abbrev nBuf : Space → Nat
  | .hbm => 66
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S128x384, .f32⟩
  | .hbm, ⟨2, _⟩ => ⟨S2x800000, .i32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S100000x128, .f32⟩
  | .hbm, ⟨18, _⟩ => ⟨S800000x1, .i32⟩
  | .hbm, ⟨19, _⟩ => ⟨S100000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S100000x128, .f32⟩
  | .hbm, ⟨44, _⟩ => ⟨S800000x1, .i32⟩
  | .hbm, ⟨45, _⟩ => ⟨S100000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S100000, .f32⟩
  | .hbm, ⟨50, _⟩ => ⟨S800000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x1, .f32⟩
  | .local _ .vmem, ⟨7, _⟩ => ⟨S10000x1, .f32⟩
  | .local _ .vmem, ⟨8, _⟩ => ⟨S10000x1, .f32⟩
  | .local _ .vmem, ⟨9, _⟩ => ⟨S10000x1, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S10000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S100000x1.size a
  hwx0_4 : ∀ i : grid0.Coords, EltTy.bits .f32 = 32 ∨ (Rect.block (s := S100000x1) S10000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S10000x128.size a ≤ S100000x128.size a
  hwx0_8 : ∀ i : grid0.Coords, EltTy.bits .f32 = 32 ∨ (Rect.block (s := S100000x128) S10000x128.size (cc0_transform_8 i) (hinb0_8 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S10000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v43) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v48) S10000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x384 : Shape := ⟨2, ![128, 384]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x384 : Shape := ⟨2, ![100000, 384]⟩
abbrev S384x128 : Shape := ⟨2, ![384, 128]⟩

abbrev nBuf : Space → Nat
  | .hbm => 63
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x384, .f32⟩
  | .hbm, ⟨2, _⟩ => ⟨S2x800000, .i32⟩
  | .hbm, ⟨3, _⟩ => ⟨S1x800000, .i32⟩
  | .hbm, ⟨4, _⟩ => ⟨S800000, .i32⟩
  | .hbm, ⟨5, _⟩ => ⟨S1x800000, .i32⟩
  | .hbm, ⟨6, _⟩ => ⟨S800000, .i32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S_, .f32⟩
  | .hbm, ⟨17, _⟩ => ⟨S100000x128, .f32⟩
  | .hbm, ⟨18, _⟩ => ⟨S800000x1, .i32⟩
  | .hbm, ⟨19, _⟩ => ⟨S100000x128, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S100000x128, .f32⟩
  | .hbm, ⟨43, _⟩ => ⟨S800000x1, .i32⟩
  | .hbm, ⟨44, _⟩ => ⟨S100000x128, .f32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S100000, .f32⟩
  | .hbm, ⟨49, _⟩ => ⟨S800000x1, .i32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x384, .f32⟩
  | .hbm, ⟨58, _⟩ => ⟨S384x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x128_S100000x384_d1 : Shape.Concatenates [S100000x128, S100000x128, S100000x128] S100000x384 1
  transposes_S128x384_S384x128_1_0 : S128x384.Transposes [1, 0] S384x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x384_S384x128_S100000x128_1_0_0_1_n_n_wf : DotDims.WF S100000x384 S384x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.Law.lean ====
/-
  The two laws on the extended reals that join the kernel and the reference.

  * A degree clipped below at one is never zero, and multiplying by the reciprocal of a nonzero divisor is
    dividing by it: `x · (1 / y) = x / y`. The kernel normalizes a neighbour sum by the first form, the
    reference by the second.
  * A sum over 384 terms is the sum of its three consecutive blocks of 128 terms: a product against the
    concatenation of three 128-column matrices is the sum of three products against the matching column
    slices of the weight. Only commutativity and associativity of addition are used, so no term need be finite.
-/
import Idealize.ShloMosaic.PureOps.Ideal
import Idealize.ShloMosaic.Lib.IdealHost
import Mathlib.Algebra.BigOperators.Fin

noncomputable section

open scoped BigOperators

namespace Cert.MeanConcat

open Idealize.ShloMosaic

/-- The larger of a degree and one is at least one, hence not zero. -/
theorem max_one_ne_zero (d : EReal) : max d (Ideal.ofBits .f32 0x3F800000#32) ≠ 0 := by
  rw [Ideal.ofBits_one_f32]
  intro h0
  have h : (1 : EReal) ≤ max d 1 := le_max_right _ _
  rw [h0] at h
  exact absurd h (not_le.mpr zero_lt_one)

/-- Multiplying by the reciprocal of a nonzero divisor is dividing by it. -/
theorem mul_one_div (x y : EReal) (hy : y ≠ 0) :
    x * Ideal.div (Ideal.ofBits .f32 0x3F800000#32) y = Ideal.div x y := by
  rw [Ideal.ofBits_one_f32]
  unfold Ideal.div
  rw [if_neg hy, if_neg hy, one_mul]

/-- A sum over 384 terms is the sum of its three consecutive blocks of 128 terms. -/
theorem sum_three_blocks {M : Type*} [AddCommMonoid M] (h : Fin 384 → M) :
    ∑ k : Fin 384, h k
      = (∑ k : Fin 128, h ⟨k.val, lt_of_lt_of_le k.isLt (by decide)⟩
          + ∑ k : Fin 128, h ⟨128 + k.val, by have := k.isLt; omega⟩)
        + ∑ k : Fin 128, h ⟨256 + k.val, by have := k.isLt; omega⟩ := by
  have e1 : ∑ k : Fin 384, h k
      = ∑ k : Fin 128, h (Fin.castAdd 256 k) + ∑ j : Fin 256, h (Fin.natAdd 128 j) :=
    Fin.sum_univ_add (M := M) (a := 128) (b := 256) h
  have e2 : ∑ j : Fin 256, h (Fin.natAdd 128 j)
      = ∑ k : Fin 128, h (Fin.natAdd 128 (Fin.castAdd 128 k))
        + ∑ k : Fin 128, h (Fin.natAdd 128 (Fin.natAdd 128 k)) :=
    Fin.sum_univ_add (M := M) (a := 128) (b := 128) (fun j => h (Fin.natAdd 128 j))
  rw [add_assoc]
  refine e1.trans (congrArg₂ (· + ·) rfl (e2.trans (congrArg₂ (· + ·) rfl ?_)))
  refine Finset.sum_congr rfl fun k _ => congrArg h (Fin.ext ?_)
  show 128 + (128 + k.val) = 256 + k.val
  omega

end Cert.MeanConcat

end
-- ==== Proof.Layer.lean ====
/-
  The layer's output as one function of the three arguments, and the reference read at an entry.

  For node `n` and output feature `o` the layer computes the larger of zero and

      Σₖ feat(n,k)·W(o,k)  +  Σₖ (Sin(n,k)·(1/din(n)))·W(o,128+k)  +  Σₖ (Sout(n,k)·(1/dout(n)))·W(o,256+k),

  `k` over the 128 feature columns, where `Sin` / `Sout` are the sums of the features of a node's incoming /
  outgoing neighbours and `din` / `dout` the matching neighbour counts clipped below at one. How the sums and the
  counts are gathered from the edge list never matters here: both programs compute them by the same operations, so
  they stay unopened.

  The reference concatenates the features with the two neighbour MEANS (sum divided by clipped count) into a
  384-column matrix and multiplies by the transposed weight. Its contraction over 384 columns is the sum of its three
  128-column blocks, each block of the concatenation is one of the three pieces, and dividing by a count that is at
  least one is multiplying by its reciprocal: that is the formula above.
-/
import proofs.«136234_j81329500717451_2_alg».proof.Proof.Gen.ReferenceIdeal.Read
import proofs.«136234_j81329500717451_2_alg».proof.Proof.Law
import Idealize.ShloMosaic.Lib.Pipeline.Value
import Idealize.ShloMosaic.Lib.ValueIdx
import Idealize.ShloMosaic.PureOps.Ideal.Laws

noncomputable section

open scoped BigOperators

namespace Cert.ReferenceIdeal.Layer

open Cert.ReferenceIdeal Cert.ReferenceIdeal.Read Idealize.ShloMosaic Idealize.ShloMosaic.ValueIdx

/-- Column `k` of the weight's first, second and third block of 128 columns. -/
abbrev col0 (k : Fin 128) : Fin 384 := ⟨k.val, lt_of_lt_of_le k.isLt (by decide)⟩
abbrev col1 (k : Fin 128) : Fin 384 := ⟨128 + k.val, by have := k.isLt; omega⟩
abbrev col2 (k : Fin 128) : Fin 384 := ⟨256 + k.val, by have := k.isLt; omega⟩

/-- The f32 word of one. -/
abbrev oneWord : Ideal .f32 := Ideal.ofBits .f32 0x3F800000#32

/-- Entry `(n, o)` of the layer's output. -/
def layerAt (x0 : FVec Ideal S100000x128 .f32) (x1 : FVec Ideal S128x384 .f32) (x2 : IVec S2x800000 32)
    (n : Fin 100000) (o : Fin 128) : Ideal .f32 :=
  max ((∑ k : Fin 128, x0 (ix2 n k) * x1 (ix2 o (col0 k))
        + ∑ k : Fin 128, (val_main_v13 (F := Ideal) x0 x2 (ix2 n k)
            * Ideal.div oneWord (val_main_v19 (F := Ideal) x2 (ix1 n))) * x1 (ix2 o (col1 k)))
       + ∑ k : Fin 128, (val_main_v32 (F := Ideal) x0 x2 (ix2 n k)
            * Ideal.div oneWord (val_main_v38 (F := Ideal) x2 (ix1 n))) * x1 (ix2 o (col2 k))) 0

/-- The layer's output array. -/
def layer (x0 : FVec Ideal S100000x128 .f32) (x1 : FVec Ideal S128x384 .f32) (x2 : IVec S2x800000 32) :
    FVec Ideal S100000x128 .f32 :=
  fun i => layerAt x0 x1 x2 (i 0) (i 1)

/-! ## The concatenation, block by block -/

/-- The three matrices the reference joins along the columns: the features and the two neighbour means. -/
abbrev pieces (x0 : FVec Ideal S100000x128 .f32) (x2 : IVec S2x800000 32) : List ((s : Shape) × (s.Idx → Ideal .f32)) :=
  [⟨S100000x128, x0⟩, ⟨S100000x128, val_main_v22 (F := Ideal) x0 x2⟩, ⟨S100000x128, val_main_v41 (F := Ideal) x0 x2⟩]

/-- In its first 128 columns the concatenation is the feature matrix. -/
theorem concat_block0 (x0 : FVec Ideal S100000x128 .f32) (x2 : IVec S2x800000 32) (n : Fin 100000) (k : Fin 128) :
    val_main_v42 (F := Ideal) x0 x2 (ix2 n (col0 k)) = x0 (ix2 n k) := by
  unfold val_main_v42
  refine concatenate_apply_piece (t := S100000x384) (1 : Fin 2) (pieces x0 x2) _ (ix2 n (col0 k)) 0 (by show (0 : ℕ) < 3; decide)
    S100000x128 x0 rfl rfl 0 rfl (ix2 n k) (fun b hb => ?_) ?_
  · match b with
    | ⟨0, _⟩ => rfl
    | ⟨1, _⟩ => exact absurd rfl hb
  · show 0 + k.val = k.val
    omega

/-- In its next 128 columns it is the mean over the incoming neighbours. -/
theorem concat_block1 (x0 : FVec Ideal S100000x128 .f32) (x2 : IVec S2x800000 32) (n : Fin 100000) (k : Fin 128) :
    val_main_v42 (F := Ideal) x0 x2 (ix2 n (col1 k)) = val_main_v22 (F := Ideal) x0 x2 (ix2 n k) := by
  unfold val_main_v42
  refine concatenate_apply_piece (t := S100000x384) (1 : Fin 2) (pieces x0 x2) _ (ix2 n (col1 k)) 1 (by show (1 : ℕ) < 3; decide)
    S100000x128 (val_main_v22 (F := Ideal) x0 x2) rfl rfl 128 rfl (ix2 n k) (fun b hb => ?_) rfl
  · match b with
    | ⟨0, _⟩ => rfl
    | ⟨1, _⟩ => exact absurd rfl hb

/-- In its last 128 columns it is the mean over the outgoing neighbours. -/
theorem concat_block2 (x0 : FVec Ideal S100000x128 .f32) (x2 : IVec S2x800000 32) (n : Fin 100000) (k : Fin 128) :
    val_main_v42 (F := Ideal) x0 x2 (ix2 n (col2 k)) = val_main_v41 (F := Ideal) x0 x2 (ix2 n k) := by
  unfold val_main_v42
  refine concatenate_apply_piece (t := S100000x384) (1 : Fin 2) (pieces x0 x2) _ (ix2 n (col2 k)) 2 (by show (2 : ℕ) < 3; decide)
    S100000x128 (val_main_v41 (F := Ideal) x0 x2) rfl rfl 256 rfl (ix2 n k) (fun b hb => ?_) rfl
  · match b with
    | ⟨0, _⟩ => rfl
    | ⟨1, _⟩ => exact absurd rfl hb

/-! ## A neighbour mean is the sum times the reciprocal count -/

/-- The clipped incoming count, broadcast along a row, read at `(n, k)`. -/
theorem count_in_entry (x2 : IVec S2x800000 32) (n : Fin 100000) (k : Fin 128) :
    val_main_v21 (F := Ideal) x2 (ix2 n k) = val_main_v19 (F := Ideal) x2 (ix1 n) := by
  rw [val_main_v21_apply, val_main_v20_apply]
  exact congrArg _ (funext fun a => match a with | ⟨0, _⟩ => rfl)

/-- The clipped outgoing count, broadcast along a row, read at `(n, k)`. -/
theorem count_out_entry (x2 : IVec S2x800000 32) (n : Fin 100000) (k : Fin 128) :
    val_main_v40 (F := Ideal) x2 (ix2 n k) = val_main_v38 (F := Ideal) x2 (ix1 n) := by
  rw [val_main_v40_apply, val_main_v39_apply]
  exact congrArg _ (funext fun a => match a with | ⟨0, _⟩ => rfl)

/-- A clipped incoming count is not zero. -/
theorem count_in_ne_zero (x2 : IVec S2x800000 32) (n : Fin 100000) : val_main_v19 (F := Ideal) x2 (ix1 n) ≠ 0 := by
  rw [val_main_v19_apply, val_main_v18_apply]
  exact Cert.MeanConcat.max_one_ne_zero _

/-- A clipped outgoing count is not zero. -/
theorem count_out_ne_zero (x2 : IVec S2x800000 32) (n : Fin 100000) : val_main_v38 (F := Ideal) x2 (ix1 n) ≠ 0 := by
  rw [val_main_v38_apply, val_main_v37_apply]
  exact Cert.MeanConcat.max_one_ne_zero _

/-- The mean over the incoming neighbours is their sum times the reciprocal of the clipped count. -/
theorem mean_in_entry (x0 : FVec Ideal S100000x128 .f32) (x2 : IVec S2x800000 32) (n : Fin 100000) (k : Fin 128) :
    val_main_v22 (F := Ideal) x0 x2 (ix2 n k)
      = val_main_v13 (F := Ideal) x0 x2 (ix2 n k) * Ideal.div oneWord (val_main_v19 (F := Ideal) x2 (ix1 n)) := by
  rw [val_main_v22_apply, count_in_entry]
  exact (Cert.MeanConcat.mul_one_div _ _ (count_in_ne_zero x2 n)).symm

/-- The mean over the outgoing neighbours is their sum times the reciprocal of the clipped count. -/
theorem mean_out_entry (x0 : FVec Ideal S100000x128 .f32) (x2 : IVec S2x800000 32) (n : Fin 100000) (k : Fin 128) :
    val_main_v41 (F := Ideal) x0 x2 (ix2 n k)
      = val_main_v32 (F := Ideal) x0 x2 (ix2 n k) * Ideal.div oneWord (val_main_v38 (F := Ideal) x2 (ix1 n)) := by
  rw [val_main_v41_apply, count_out_entry]
  exact (Cert.MeanConcat.mul_one_div _ _ (count_out_ne_zero x2 n)).symm

/-! ## The reference at an entry -/

/-- The left operand's index at contraction column `j` is `(n, j)`, the transposed weight's is `(j, o)`, read from
    the weight at `(o, j)`. -/
theorem lidx_eq (n : Fin 100000) (o : Fin 128) (j : Fin 384) : lidx_main_v44 (ix2 n o) j = ix2 n j :=
  funext fun a => match a with | ⟨0, _⟩ => rfl | ⟨1, _⟩ => rfl

theorem weight_entry (x1 : FVec Ideal S128x384 .f32) (n : Fin 100000) (o : Fin 128) (j : Fin 384) :
    val_main_v43 (F := Ideal) x1 (ridx_main_v44 (ix2 n o) j) = x1 (ix2 o j) := by
  rw [val_main_v43_apply]
  exact congrArg x1 (funext fun a => match a with | ⟨0, _⟩ => rfl | ⟨1, _⟩ => rfl)

/-- THE REFERENCE AT AN ENTRY is the layer's formula. -/
theorem reference_entry (x0 : FVec Ideal S100000x128 .f32) (x1 : FVec Ideal S128x384 .f32) (x2 : IVec S2x800000 32)
    (n : Fin 100000) (o : Fin 128) :
    val_main_v45 (F := Ideal) x0 x1 x2 (ix2 n o) = layerAt x0 x1 x2 n o := by
  rw [val_main_v45_apply, val_main_v44_apply, val_main_call0_v0_apply, val_main_call0_cst_apply]
  simp only [lidx_eq, weight_entry]
  rw [Cert.MeanConcat.sum_three_blocks]
  unfold layerAt
  show max _ (Ideal.ofBits .f32 0x00000000#32) = _
  rw [Ideal.ofBits_zero_f32]
  refine congrArg₂ max (congrArg₂ (· + ·) (congrArg₂ (· + ·) ?_ ?_) ?_) rfl
  · exact Finset.sum_congr rfl fun k _ => congrArg₂ (· * ·) (concat_block0 x0 x2 n k) rfl
  · exact Finset.sum_congr rfl fun k _ =>
      congrArg₂ (· * ·) ((concat_block1 x0 x2 n k).trans (mean_in_entry x0 x2 n k)) rfl
  · exact Finset.sum_congr rfl fun k _ =>
      congrArg₂ (· * ·) ((concat_block2 x0 x2 n k).trans (mean_out_entry x0 x2 n k)) rfl

/-- The reference's result array is the layer's output. -/
theorem reference_eq (x0 : FVec Ideal S100000x128 .f32) (x1 : FVec Ideal S128x384 .f32) (x2 : IVec S2x800000 32) :
    val_main_v45 (F := Ideal) x0 x1 x2 = layer x0 x1 x2 := by
  funext i
  obtain ⟨n, o, rfl⟩ : ∃ (n : Fin 100000) (o : Fin 128), i = ix2 n o := ⟨i 0, i 1, eq_ix2 i⟩
  exact reference_entry x0 x1 x2 n o

end Cert.ReferenceIdeal.Layer

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.BlockEntry.lean ====
/-
  One entry of the block a grid point computes. For row `p` of the point's 10000 rows and output column `q`:
  the row of the node features times the first weight block, plus the row of the incoming-neighbour sums, each
  scaled by that row's reciprocal degree, times the second block, plus the same for the outgoing neighbours and
  the third block; then the larger of that and zero. Each of the three products runs over the 128 feature
  columns and starts from a zero accumulator, so at the extended reals it is a plain sum of products.
-/
import proofs.«136234_j81329500717451_2_alg».proof.Proof.Gen.KernelIdeal.Skeleton
import proofs.«136234_j81329500717451_2_alg».proof.Proof.LibPlainMatmul
import proofs.«136234_j81329500717451_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.BlockEntry

open Cert.KernelIdeal Cert.KernelIdeal.Gen Idealize.ShloMosaic Idealize.ShloMosaic.ValueIdx

/-- A 10000×128 by 128×128 product into the zero accumulator, at entry `(p, q)`, is the sum over the 128
    contracted columns of the left entry in row `p` times the right entry in column `q`. -/
theorem product_entry (A : FVec Ideal S10000x128 .f32) (B : FVec Ideal S128x128 .f32) (p : Fin 10000) (q : Fin 128) :
    matmul dot_S10000x128_S128x128_S10000x128_1_0_0_1_n_n (some .fp32) A B
        (constant S10000x128 .f32 0x00000000#32) (ix2 p q)
      = ∑ k : Fin 128, A (ix2 p k) * B (ix2 k q) :=
  Cert.LibPlainMatmul.matmul_zero_apply (a := 10000) (n := 128) (b := 128) (some .fp32) A B p q

/-- A neighbour sum scaled row by row: entry `(p, k)` is the sum's entry times the row's scale. -/
theorem scaled_entry (S : FVec Ideal S10000x128 .f32) (r : FVec Ideal S10000x1 .f32) (p : Fin 10000) (k : Fin 128) :
    mulf S (broadcastTo S10000x128 r broadcasts_S10000x1_S10000x128) (ix2 p k) = S (ix2 p k) * r (ix2 p (0 : Fin 1)) := by
  rw [mulf_apply, Cert.LibKeepdims.broadcastTo_a1_ab_apply]

/-- The body's result at entry `(p, q)`. -/
theorem body_entry (x0 x1 x2 : Vec Ideal S10000x128 .f32) (x3 x4 : Vec Ideal S10000x1 .f32)
    (x5 x6 x7 : Vec Ideal S128x128 .f32) (p : Fin 10000) (q : Fin 128) :
    k0_pay1 (F := Ideal) x0 x1 x3 x2 x4 x5 x6 x7 (ix2 p q)
      = max ((∑ k : Fin 128, x0 (ix2 p k) * x5 (ix2 k q)
              + ∑ k : Fin 128, (x1 (ix2 p k) * x3 (ix2 p (0 : Fin 1))) * x6 (ix2 k q))
             + ∑ k : Fin 128, (x2 (ix2 p k) * x4 (ix2 p (0 : Fin 1))) * x7 (ix2 k q)) 0 := by
  unfold k0_pay1
  simp only [shapeCast_self]
  rw [maximumf_apply, addf_apply, addf_apply, product_entry, product_entry, product_entry, broadcast_apply]
  simp only [scaled_entry]
  show max _ (Ideal.ofBits .f32 0x00000000#32) = _
  rw [Ideal.ofBits_zero_f32]

end Cert.KernelIdeal.BlockEntry

end
-- ==== Proof.WindowArrays.lean ====
/-
  The arrays the region's windows stage, as the region finds them, in terms of the three arguments.

  Before the region the host computes, from the features and the edge list: the sum of the features of each
  node's incoming neighbours and of its outgoing neighbours, by exactly the operations the reference uses (so each
  array IS the reference's term, the gathering left unopened); per node the reciprocal of the neighbour count clipped
  below at one, as a column; and the three 128-column slices of the weight, each transposed. Read at an entry: the
  column of reciprocals at row `n` is one over the clipped count of `n`, and entry `(k, o)` of a transposed
  slice is the weight at `(o, 128·b + k)` for block `b`.
-/
import proofs.«136234_j81329500717451_2_alg».proof.Proof.Gen.KernelIdeal.Frame
import proofs.«136234_j81329500717451_2_alg».proof.Proof.Gen.ReferenceIdeal.Read
import proofs.«136234_j81329500717451_2_alg».proof.Proof.Layer
import Idealize.ShloMosaic.Lib.StableHlo.Run
import Idealize.ShloMosaic.Lib.Pipeline.Value
import Idealize.ShloMosaic.Lib.ValueIdx

noncomputable section

namespace Cert.KernelIdeal.WindowArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The neighbour sums -/

set_option maxRecDepth 8192 in
set_option maxHeartbeats 2000000 in
/-- The array of sums over incoming neighbours is the reference's. -/
theorem sum_in (c : Dev nD) :
    (V m c main_v13 : S100000x128.Idx → Ideal .f32) = Cert.ReferenceIdeal.Read.val_main_v13 (F := Ideal) (m ((c : Thread nD τ).loc main_arg0)) (m ((c : Thread nD τ).loc main_arg2)) := by
  show StableHlo.after hostOps0 (fun b => m (c, b)) (Proc.devRef .tc main_v13) = _
  after_results_simp <;> rfl

set_option maxRecDepth 8192 in
set_option maxHeartbeats 2000000 in
/-- The array of sums over outgoing neighbours is the reference's. -/
theorem sum_out (c : Dev nD) :
    (V m c main_v32 : S100000x128.Idx → Ideal .f32) = Cert.ReferenceIdeal.Read.val_main_v32 (F := Ideal) (m ((c : Thread nD τ).loc main_arg0)) (m ((c : Thread nD τ).loc main_arg2)) := by
  show StableHlo.after hostOps0 (fun b => m (c, b)) (Proc.devRef .tc main_v32) = _
  after_results_simp <;> rfl

/-! ## The reciprocal clipped counts -/

/-- One over each entry of a count vector, as a column. -/
def recipColumn (d : FVec Ideal S100000 .f32) : FVec Ideal S100000x1 .f32 :=
  broadcastInDim S100000x1 ![0] bcast_S100000_S100000x1_0
    (Host.divf (broadcastInDim S100000 ![] bcast_S_S100000 (constant S_ .f32 0x3F800000#32)) d)

/-- Row `n` of the column is one over the count of `n`. -/
theorem recipColumn_entry (d : FVec Ideal S100000 .f32) (n : Fin 100000) :
    recipColumn d (ix2 n (0 : Fin 1)) = Ideal.div Cert.ReferenceIdeal.Layer.oneWord (d (ix1 n)) := by
  unfold recipColumn
  refine (broadcastInDim_apply _ bcast_S100000_S100000x1_0 _ (ix2 n (0 : Fin 1)) (ix1 n) (fun a => match a with
    | ⟨0, _⟩ => by show n.val = if (100000 : Nat) = 1 then 0 else n.val; rw [if_neg (by decide)])).trans ?_
  show Ideal.div (broadcastInDim S100000 ![] bcast_S_S100000 (constant (F := Ideal) S_ .f32 0x3F800000#32) (ix1 n)) (d (ix1 n)) = _
  rw [broadcastInDim_apply _ bcast_S_S100000 _ (ix1 n) ix0 (fun a => a.elim0)]
  rfl

set_option maxRecDepth 8192 in
set_option maxHeartbeats 2000000 in
/-- The column staged for the incoming side is built from the reference's clipped incoming counts. -/
theorem recip_in (c : Dev nD) :
    (V m c main_v22 : S100000x1.Idx → Ideal .f32) = recipColumn (Cert.ReferenceIdeal.Read.val_main_v19 (F := Ideal) (m ((c : Thread nD τ).loc main_arg2))) := by
  show StableHlo.after hostOps0 (fun b => m (c, b)) (Proc.devRef .tc main_v22) = _
  after_results_simp <;> rfl

set_option maxRecDepth 8192 in
set_option maxHeartbeats 2000000 in
/-- The column staged for the outgoing side is built from the reference's clipped outgoing counts. -/
theorem recip_out (c : Dev nD) :
    (V m c main_v41 : S100000x1.Idx → Ideal .f32) = recipColumn (Cert.ReferenceIdeal.Read.val_main_v38 (F := Ideal) (m ((c : Thread nD τ).loc main_arg2))) := by
  show StableHlo.after hostOps0 (fun b => m (c, b)) (Proc.devRef .tc main_v41) = _
  after_results_simp <;> rfl

/-! ## The transposed weight slices -/

/-- The 128 columns of the weight starting at column `off`, transposed. -/
def sliceT (off : Nat) (h : S128x384.Slices ![0, off] S128x128) (w : FVec Ideal S128x384 .f32) : FVec Ideal S128x128 .f32 :=
  transpose S128x128 [1, 0] (extractStridedSlice S128x128 ![0, off] w h) transposes_S128x128_S128x128_1_0

/-- Entry `(k, o)` of a transposed slice is the weight at row `o`, column `off + k`. -/
theorem sliceT_entry (off : Nat) (h : S128x384.Slices ![0, off] S128x128) (w : FVec Ideal S128x384 .f32)
    (k o : Fin 128) (j : Fin 384) (hj : j.val = off + k.val) : sliceT off h w (ix2 k o) = w (ix2 o j) := by
  unfold sliceT
  refine (transpose_apply [1, 0] _ transposes_S128x128_S128x128_1_0 (ix2 k o) (ix2 o k) (fun b => match b with
    | ⟨0, _⟩ => rfl
    | ⟨1, _⟩ => rfl)).trans ?_
  exact extractStridedSlice_apply ![0, off] w h (ix2 o k) (ix2 o j) (fun a => match a with
    | ⟨0, _⟩ => by show o.val = 0 + o.val; omega
    | ⟨1, _⟩ => by show j.val = off + k.val; exact hj)

set_option maxRecDepth 8192 in
set_option maxHeartbeats 2000000 in
theorem weight0 (c : Dev nD) :
    (V m c main_v43 : S128x128.Idx → Ideal .f32) = sliceT 0 slices_S128x384_S128x128_0_0 (m ((c : Thread nD τ).loc main_arg1)) := by
  show StableHlo.after hostOps0 (fun b => m (c, b)) (Proc.devRef .tc main_v43) = _
  after_results_simp <;> rfl

set_option maxRecDepth 8192 in
set_option maxHeartbeats 2000000 in
theorem weight1 (c : Dev nD) :
    (V m c main_v45 : S128x128.Idx → Ideal .f32) = sliceT 128 slices_S128x384_S128x128_0_128 (m ((c : Thread nD τ).loc main_arg1)) := by
  show StableHlo.after hostOps0 (fun b => m (c, b)) (Proc.devRef .tc main_v45) = _
  after_results_simp <;> rfl

set_option maxRecDepth 8192 in
set_option maxHeartbeats 2000000 in
theorem weight2 (c : Dev nD) :
    (V m c main_v47 : S128x128.Idx → Ideal .f32) = sliceT 256 slices_S128x384_S128x128_0_256 (m ((c : Thread nD τ).loc main_arg1)) := by
  show StableHlo.after hostOps0 (fun b => m (c, b)) (Proc.devRef .tc main_v47) = _
  after_results_simp <;> rfl

end Cert.KernelIdeal.WindowArrays

end
-- ==== Proof.OutputArray.lean ====
/-
  From the blocks to the whole output array.

  The grid has ten points; point `t` stages rows `10000·t … 10000·t + 9999` of the features, of the two
  neighbour-sum arrays and of the two reciprocal-count columns, and the three transposed weight blocks whole, and
  writes back the same rows of the output. So the entry the body computes for row `p` of its block is the layer's
  entry for node `10000·t + p`, and since every node lies in exactly the block of its row divided by 10000, the ten
  blocks fill the output array: after the run it holds the layer's output.
-/
import proofs.«136234_j81329500717451_2_alg».proof.Proof.Gen.KernelIdeal.Value
import proofs.«136234_j81329500717451_2_alg».proof.Proof.BlockEntry
import proofs.«136234_j81329500717451_2_alg».proof.Proof.WindowArrays
import proofs.«136234_j81329500717451_2_alg».proof.Proof.Layer
import Idealize.ShloMosaic.Lib.Pipeline.Value
import Idealize.ShloMosaic.Lib.ValueIdx

set_option maxRecDepth 16384

noncomputable section

open scoped BigOperators

namespace Cert.KernelIdeal.OutputArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.KernelIdeal.WindowArrays Cert.KernelIdeal.BlockEntry
open Cert.ReferenceIdeal.Layer (layer layerAt col0 col1 col2 oneWord)

variable (m : (ℓ : Loc nD τ sig) → Buf (Elt Ideal) ℓ) (ρ : Dev nD → PrngReg)

theorem origin : (![0, 0] : Fin 2 → Nat) = fun _ => 0 := funext fun a => by fin_cases a <;> rfl

/-! ## The index maps, decided over the ten points -/

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem index8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-! ## Where a block's entry sits in its array -/

/-- The node that row `p` of point `t`'s block holds. -/
def rowOf (t : Fin cfg0.N) (p : Fin 10000) : Fin 100000 :=
  ⟨t.val * 10000 + p.val, by have ht : t.val < 10 := t.isLt; have hp := p.isLt; omega⟩

theorem place0 (t : Fin cfg0.N) (p : Fin 10000) (k : Fin 128) :
    ((cfg0.win 0).blk t).view.emb (ix2 p k) = ix2 (rowOf t p) k := by
  obtain ⟨e0, e1⟩ := index0 t
  funext a; apply Fin.ext
  match a with
  | ⟨0, _⟩ => show win0_0.index t (0 : Fin 2) * 10000 + 1 * p.val = t.val * 10000 + p.val; omega
  | ⟨1, _⟩ => show win0_0.index t (1 : Fin 2) * 128 + 1 * k.val = k.val; omega
theorem place1 (t : Fin cfg0.N) (p : Fin 10000) (k : Fin 128) :
    ((cfg0.win 1).blk t).view.emb (ix2 p k) = ix2 (rowOf t p) k := by
  obtain ⟨e0, e1⟩ := index1 t
  funext a; apply Fin.ext
  match a with
  | ⟨0, _⟩ => show win0_1.index t (0 : Fin 2) * 10000 + 1 * p.val = t.val * 10000 + p.val; omega
  | ⟨1, _⟩ => show win0_1.index t (1 : Fin 2) * 128 + 1 * k.val = k.val; omega
theorem place2 (t : Fin cfg0.N) (p : Fin 10000) (k : Fin 128) :
    ((cfg0.win 2).blk t).view.emb (ix2 p k) = ix2 (rowOf t p) k := by
  obtain ⟨e0, e1⟩ := index2 t
  funext a; apply Fin.ext
  match a with
  | ⟨0, _⟩ => show win0_2.index t (0 : Fin 2) * 10000 + 1 * p.val = t.val * 10000 + p.val; omega
  | ⟨1, _⟩ => show win0_2.index t (1 : Fin 2) * 128 + 1 * k.val = k.val; omega
theorem place3 (t : Fin cfg0.N) (p : Fin 10000) (k : Fin 1) :
    ((cfg0.win 3).blk t).view.emb (ix2 p k) = ix2 (rowOf t p) k := by
  obtain ⟨e0, e1⟩ := index3 t
  funext a; apply Fin.ext
  match a with
  | ⟨0, _⟩ => show win0_3.index t (0 : Fin 2) * 10000 + 1 * p.val = t.val * 10000 + p.val; omega
  | ⟨1, _⟩ => show win0_3.index t (1 : Fin 2) * 1 + 1 * k.val = k.val; omega
theorem place4 (t : Fin cfg0.N) (p : Fin 10000) (k : Fin 1) :
    ((cfg0.win 4).blk t).view.emb (ix2 p k) = ix2 (rowOf t p) k := by
  obtain ⟨e0, e1⟩ := index4 t
  funext a; apply Fin.ext
  match a with
  | ⟨0, _⟩ => show win0_4.index t (0 : Fin 2) * 10000 + 1 * p.val = t.val * 10000 + p.val; omega
  | ⟨1, _⟩ => show win0_4.index t (1 : Fin 2) * 1 + 1 * k.val = k.val; omega
theorem place8 (t : Fin cfg0.N) (p : Fin 10000) (k : Fin 128) :
    ((cfg0.win 8).blk t).view.emb (ix2 p k) = ix2 (rowOf t p) k := by
  obtain ⟨e0, e1⟩ := index8 t
  funext a; apply Fin.ext
  match a with
  | ⟨0, _⟩ => show win0_8.index t (0 : Fin 2) * 10000 + 1 * p.val = t.val * 10000 + p.val; omega
  | ⟨1, _⟩ => show win0_8.index t (1 : Fin 2) * 128 + 1 * k.val = k.val; omega
theorem place5 (t : Fin cfg0.N) (k o : Fin 128) :
    ((cfg0.win 5).blk t).view.emb (ix2 k o) = ix2 k o := by
  obtain ⟨e0, e1⟩ := index5 t
  funext a; apply Fin.ext
  match a with
  | ⟨0, _⟩ => show win0_5.index t (0 : Fin 2) * 128 + 1 * k.val = k.val; omega
  | ⟨1, _⟩ => show win0_5.index t (1 : Fin 2) * 128 + 1 * o.val = o.val; omega
theorem place6 (t : Fin cfg0.N) (k o : Fin 128) :
    ((cfg0.win 6).blk t).view.emb (ix2 k o) = ix2 k o := by
  obtain ⟨e0, e1⟩ := index6 t
  funext a; apply Fin.ext
  match a with
  | ⟨0, _⟩ => show win0_6.index t (0 : Fin 2) * 128 + 1 * k.val = k.val; omega
  | ⟨1, _⟩ => show win0_6.index t (1 : Fin 2) * 128 + 1 * o.val = o.val; omega
theorem place7 (t : Fin cfg0.N) (k o : Fin 128) :
    ((cfg0.win 7).blk t).view.emb (ix2 k o) = ix2 k o := by
  obtain ⟨e0, e1⟩ := index7 t
  funext a; apply Fin.ext
  match a with
  | ⟨0, _⟩ => show win0_7.index t (0 : Fin 2) * 128 + 1 * k.val = k.val; omega
  | ⟨1, _⟩ => show win0_7.index t (1 : Fin 2) * 128 + 1 * o.val = o.val; omega

/-! ## A block read at an entry, whatever its array holds -/

theorem read_rows0 (A : S100000x128.Idx → Ideal .f32) (t : Fin cfg0.N) (p : Fin 10000) (k : Fin 128) :
    ((cfg0.win 0).blk t).view.read (Elt Ideal) A (ix2 p k) = A (ix2 (rowOf t p) k) := by
  show A (((cfg0.win 0).blk t).view.emb (ix2 p k)) = _
  rw [place0]
theorem read_rows1 (A : S100000x128.Idx → Ideal .f32) (t : Fin cfg0.N) (p : Fin 10000) (k : Fin 128) :
    ((cfg0.win 1).blk t).view.read (Elt Ideal) A (ix2 p k) = A (ix2 (rowOf t p) k) := by
  show A (((cfg0.win 1).blk t).view.emb (ix2 p k)) = _
  rw [place1]
theorem read_rows2 (A : S100000x128.Idx → Ideal .f32) (t : Fin cfg0.N) (p : Fin 10000) (k : Fin 128) :
    ((cfg0.win 2).blk t).view.read (Elt Ideal) A (ix2 p k) = A (ix2 (rowOf t p) k) := by
  show A (((cfg0.win 2).blk t).view.emb (ix2 p k)) = _
  rw [place2]
theorem read_rows8 (A : S100000x128.Idx → Ideal .f32) (t : Fin cfg0.N) (p : Fin 10000) (k : Fin 128) :
    ((cfg0.win 8).blk t).view.read (Elt Ideal) A (ix2 p k) = A (ix2 (rowOf t p) k) := by
  show A (((cfg0.win 8).blk t).view.emb (ix2 p k)) = _
  rw [place8]
theorem read_rows3 (A : S100000x1.Idx → Ideal .f32) (t : Fin cfg0.N) (p : Fin 10000) (k : Fin 1) :
    ((cfg0.win 3).blk t).view.read (Elt Ideal) A (ix2 p k) = A (ix2 (rowOf t p) k) := by
  show A (((cfg0.win 3).blk t).view.emb (ix2 p k)) = _
  rw [place3]
theorem read_rows4 (A : S100000x1.Idx → Ideal .f32) (t : Fin cfg0.N) (p : Fin 10000) (k : Fin 1) :
    ((cfg0.win 4).blk t).view.read (Elt Ideal) A (ix2 p k) = A (ix2 (rowOf t p) k) := by
  show A (((cfg0.win 4).blk t).view.emb (ix2 p k)) = _
  rw [place4]
theorem read_whole5 (A : S128x128.Idx → Ideal .f32) (t : Fin cfg0.N) (k o : Fin 128) :
    ((cfg0.win 5).blk t).view.read (Elt Ideal) A (ix2 k o) = A (ix2 k o) := by
  show A (((cfg0.win 5).blk t).view.emb (ix2 k o)) = _
  rw [place5]
theorem read_whole6 (A : S128x128.Idx → Ideal .f32) (t : Fin cfg0.N) (k o : Fin 128) :
    ((cfg0.win 6).blk t).view.read (Elt Ideal) A (ix2 k o) = A (ix2 k o) := by
  show A (((cfg0.win 6).blk t).view.emb (ix2 k o)) = _
  rw [place6]
theorem read_whole7 (A : S128x128.Idx → Ideal .f32) (t : Fin cfg0.N) (k o : Fin 128) :
    ((cfg0.win 7).blk t).view.read (Elt Ideal) A (ix2 k o) = A (ix2 k o) := by
  show A (((cfg0.win 7).blk t).view.emb (ix2 k o)) = _
  rw [place7]

/-! ## The arrays behind the windows -/

theorem array0 (c : Dev nD) : (V m c (Pipeline.arrRef spec0 0) : S100000x128.Idx → Ideal .f32) = (m ((c : Thread nD τ).loc main_arg0)) :=
  V_main_arg0 m c
theorem array1 (c : Dev nD) : (V m c (Pipeline.arrRef spec0 1) : S100000x128.Idx → Ideal .f32)
    = Cert.ReferenceIdeal.Read.val_main_v13 (F := Ideal) (m ((c : Thread nD τ).loc main_arg0)) (m ((c : Thread nD τ).loc main_arg2)) := sum_in m c
theorem array2 (c : Dev nD) : (V m c (Pipeline.arrRef spec0 2) : S100000x128.Idx → Ideal .f32)
    = Cert.ReferenceIdeal.Read.val_main_v32 (F := Ideal) (m ((c : Thread nD τ).loc main_arg0)) (m ((c : Thread nD τ).loc main_arg2)) := sum_out m c
theorem array3 (c : Dev nD) : (V m c (Pipeline.arrRef spec0 3) : S100000x1.Idx → Ideal .f32)
    = recipColumn (Cert.ReferenceIdeal.Read.val_main_v19 (F := Ideal) (m ((c : Thread nD τ).loc main_arg2))) := recip_in m c
theorem array4 (c : Dev nD) : (V m c (Pipeline.arrRef spec0 4) : S100000x1.Idx → Ideal .f32)
    = recipColumn (Cert.ReferenceIdeal.Read.val_main_v38 (F := Ideal) (m ((c : Thread nD τ).loc main_arg2))) := recip_out m c
theorem array5 (c : Dev nD) : (V m c (Pipeline.arrRef spec0 5) : S128x128.Idx → Ideal .f32)
    = sliceT 0 slices_S128x384_S128x128_0_0 (m ((c : Thread nD τ).loc main_arg1)) := weight0 m c
theorem array6 (c : Dev nD) : (V m c (Pipeline.arrRef spec0 6) : S128x128.Idx → Ideal .f32)
    = sliceT 128 slices_S128x384_S128x128_0_128 (m ((c : Thread nD τ).loc main_arg1)) := weight1 m c
theorem array7 (c : Dev nD) : (V m c (Pipeline.arrRef spec0 7) : S128x128.Idx → Ideal .f32)
    = sliceT 256 slices_S128x384_S128x128_0_256 (m ((c : Thread nD τ).loc main_arg1)) := weight2 m c

/-! ## Each input block at an entry -/

theorem feat_block (c : Dev nD) (t : Fin cfg0.N) (p : Fin 10000) (k : Fin 128) :
    iblk m c 0 t (ix2 p k) = (m ((c : Thread nD τ).loc main_arg0)) (ix2 (rowOf t p) k) := by
  unfold iblk
  exact (congrArg (fun A => ((cfg0.win 0).blk t).view.read (Elt Ideal) A (ix2 p k)) (array0 m c)).trans
    (read_rows0 _ t p k)

theorem sum_in_block (c : Dev nD) (t : Fin cfg0.N) (p : Fin 10000) (k : Fin 128) :
    iblk m c 1 t (ix2 p k) = Cert.ReferenceIdeal.Read.val_main_v13 (F := Ideal) (m ((c : Thread nD τ).loc main_arg0)) (m ((c : Thread nD τ).loc main_arg2)) (ix2 (rowOf t p) k) := by
  unfold iblk
  exact (congrArg (fun A => ((cfg0.win 1).blk t).view.read (Elt Ideal) A (ix2 p k)) (array1 m c)).trans
    (read_rows1 _ t p k)

theorem sum_out_block (c : Dev nD) (t : Fin cfg0.N) (p : Fin 10000) (k : Fin 128) :
    iblk m c 2 t (ix2 p k) = Cert.ReferenceIdeal.Read.val_main_v32 (F := Ideal) (m ((c : Thread nD τ).loc main_arg0)) (m ((c : Thread nD τ).loc main_arg2)) (ix2 (rowOf t p) k) := by
  unfold iblk
  exact (congrArg (fun A => ((cfg0.win 2).blk t).view.read (Elt Ideal) A (ix2 p k)) (array2 m c)).trans
    (read_rows2 _ t p k)

theorem recip_in_block (c : Dev nD) (t : Fin cfg0.N) (p : Fin 10000) :
    iblk m c 3 t (ix2 p (0 : Fin 1)) = Ideal.div oneWord (Cert.ReferenceIdeal.Read.val_main_v19 (F := Ideal) (m ((c : Thread nD τ).loc main_arg2)) (ix1 (rowOf t p))) := by
  unfold iblk
  exact ((congrArg (fun A => ((cfg0.win 3).blk t).view.read (Elt Ideal) A (ix2 p (0 : Fin 1))) (array3 m c)).trans
    (read_rows3 _ t p 0)).trans (recipColumn_entry _ _)

theorem recip_out_block (c : Dev nD) (t : Fin cfg0.N) (p : Fin 10000) :
    iblk m c 4 t (ix2 p (0 : Fin 1)) = Ideal.div oneWord (Cert.ReferenceIdeal.Read.val_main_v38 (F := Ideal) (m ((c : Thread nD τ).loc main_arg2)) (ix1 (rowOf t p))) := by
  unfold iblk
  exact ((congrArg (fun A => ((cfg0.win 4).blk t).view.read (Elt Ideal) A (ix2 p (0 : Fin 1))) (array4 m c)).trans
    (read_rows4 _ t p 0)).trans (recipColumn_entry _ _)

theorem weight0_block (c : Dev nD) (t : Fin cfg0.N) (k o : Fin 128) :
    iblk m c 5 t (ix2 k o) = (m ((c : Thread nD τ).loc main_arg1)) (ix2 o (col0 k)) := by
  unfold iblk
  exact ((congrArg (fun A => ((cfg0.win 5).blk t).view.read (Elt Ideal) A (ix2 k o)) (array5 m c)).trans
    (read_whole5 _ t k o)).trans (sliceT_entry 0 _ _ k o (col0 k) (by show k.val = 0 + k.val; omega))

theorem weight1_block (c : Dev nD) (t : Fin cfg0.N) (k o : Fin 128) :
    iblk m c 6 t (ix2 k o) = (m ((c : Thread nD τ).loc main_arg1)) (ix2 o (col1 k)) := by
  unfold iblk
  exact ((congrArg (fun A => ((cfg0.win 6).blk t).view.read (Elt Ideal) A (ix2 k o)) (array6 m c)).trans
    (read_whole6 _ t k o)).trans (sliceT_entry 128 _ _ k o (col1 k) rfl)

theorem weight2_block (c : Dev nD) (t : Fin cfg0.N) (k o : Fin 128) :
    iblk m c 7 t (ix2 k o) = (m ((c : Thread nD τ).loc main_arg1)) (ix2 o (col2 k)) := by
  unfold iblk
  exact ((congrArg (fun A => ((cfg0.win 7).blk t).view.read (Elt Ideal) A (ix2 k o)) (array7 m c)).trans
    (read_whole7 _ t k o)).trans (sliceT_entry 256 _ _ k o (col2 k) rfl)

/-! ## What a point writes back -/

/-- The body's entry `(p, q)` over point `t`'s blocks is the layer's entry for node `10000·t + p`. -/
theorem point_entry (c : Dev nD) (t : Fin cfg0.N) (p : Fin 10000) (q : Fin 128) :
    k0_pay1 (F := Ideal) (iblk m c 0 t) (iblk m c 1 t) (iblk m c 3 t) (iblk m c 2 t) (iblk m c 4 t) (iblk m c 5 t)
        (iblk m c 6 t) (iblk m c 7 t) (ix2 p q)
      = layerAt (m ((c : Thread nD τ).loc main_arg0)) (m ((c : Thread nD τ).loc main_arg1)) (m ((c : Thread nD τ).loc main_arg2)) (rowOf t p) q := by
  refine (body_entry (iblk m c 0 t) (iblk m c 1 t) (iblk m c 2 t) (iblk m c 3 t) (iblk m c 4 t) (iblk m c 5 t)
    (iblk m c 6 t) (iblk m c 7 t) p q).trans ?_
  unfold layerAt
  simp only [feat_block, sum_in_block, sum_out_block, recip_in_block, recip_out_block, weight0_block, weight1_block,
    weight2_block]

/-- WHAT POINT `t` WRITES BACK is block `t` of the layer's output. -/
theorem flushed_eq (c : Dev nD) (t : Fin cfg0.N) :
    (dats m 0 c).flushed 8 t = ((cfg0.win 8).blk t).view.read (Elt Ideal) (layer (m ((c : Thread nD τ).loc main_arg0)) (m ((c : Thread nD τ).loc main_arg1)) (m ((c : Thread nD τ).loc main_arg2))) := by
  rw [flushed8]
  unfold out0_8
  rw [View.canon_unit_zero origin]
  simp only [View.ld_unit_zero (S := S10000x128) origin, View.ld_unit_zero (S := S10000x1) origin,
    View.ld_unit_zero (S := S128x128) origin]
  refine funext fun (j : S10000x128.Idx) => ?_
  obtain ⟨p, q, rfl⟩ : ∃ (p : Fin 10000) (q : Fin 128), j = ix2 p q := ⟨j 0, j 1, eq_ix2 j⟩
  refine Eq.trans ?_ (read_rows8 (layer (m ((c : Thread nD τ).loc main_arg0)) (m ((c : Thread nD τ).loc main_arg1)) (m ((c : Thread nD τ).loc main_arg2))) t p q).symm
  exact point_entry m c t p q

/-! ## The blocks fill the array -/

/-- An index of the array is in point `t`'s block iff each coordinate is in the block's range on its axis. -/
theorem mem_block (t : Fin cfg0.N) (i : S100000x128.Idx) :
    i ∈ ((cfg0.win 8).blk t).view.set ↔ ∀ a : Fin 2, win0_8.index t a * S10000x128.size a ≤ (i a).val
      ∧ (i a).val < win0_8.index t a * S10000x128.size a + S10000x128.size a := by
  show i ∈ ((View.whole main_v48).slice (win0_8.rect t)).set ↔ _
  rw [View.set_slice_whole, Rect.mem_set_unit]
  exact Iff.rfl

/-- Every entry of the output lies in the block of its row divided by 10000. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have ht : (i 0).val / 10000 < 10 := by omega
  obtain ⟨e0, e1⟩ := index8 (⟨(i 0).val / 10000, ht⟩ : Fin cfg0.N)
  have e0' : win0_8.index (⟨(i 0).val / 10000, ht⟩ : Fin cfg0.N) (0 : Fin 2) = (i 0).val / 10000 := e0
  refine ⟨⟨(i 0).val / 10000, ht⟩, flush0_8 _, ?_⟩
  rw [mem_block]
  intro a
  match a with
  | ⟨0, _⟩ =>
    show win0_8.index (⟨(i 0).val / 10000, ht⟩ : Fin cfg0.N) (0 : Fin 2) * 10000 ≤ (i 0).val
      ∧ (i 0).val < win0_8.index (⟨(i 0).val / 10000, ht⟩ : Fin cfg0.N) (0 : Fin 2) * 10000 + 10000
    omega
  | ⟨1, _⟩ =>
    show win0_8.index (⟨(i 0).val / 10000, ht⟩ : Fin cfg0.N) (1 : Fin 2) * 128 ≤ (i 1).val
      ∧ (i 1).val < win0_8.index (⟨(i 0).val / 10000, ht⟩ : Fin cfg0.N) (1 : Fin 2) * 128 + 128
    omega

/-- THE OUTPUT ARRAY after the run is the layer's output. -/
theorem final (c : Dev nD) : (dats m 0 c).arrAt 8 cfg0.N = layer (m ((c : Thread nD τ).loc main_arg0)) (m ((c : Thread nD τ).loc main_arg1)) (m ((c : Thread nD τ).loc main_arg2)) :=
  (dats m 0 c).arrAt_eq_of_cover 8 (layer (m ((c : Thread nD τ).loc main_arg0)) (m ((c : Thread nD τ).loc main_arg1)) (m ((c : Thread nD τ).loc main_arg2))) (fun t _ => flushed_eq m c t) cover

/-! ## The run, read -/

/-- Every weakly fair execution of the kernel's program ends with the result array at the layer's output of the
    arguments, the arguments unchanged. -/
theorem run : θ_run defs (onTc (τ := τ) (main (F := Ideal))) ⟨m, fun _ => 0, ρ⟩ fun r => ∀ c : Dev nD,
      r.2.mem ((c : Thread nD τ).loc main_v48) = layer (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.OutputArray

end
-- ==== Proof.lean ====
/-
  A graph layer that, per node, joins the node's features with the means of the features of its incoming and of its
  outgoing neighbours and applies one linear map followed by the larger-of-zero.

  The reference forms the two means (neighbour sum divided by the neighbour count clipped below at one), concatenates
  features and means into a 384-column matrix and multiplies by the transposed 128×384 weight. The kernel never forms
  the concatenation: it multiplies the features, and the two neighbour sums scaled row by row by the RECIPROCAL clipped
  counts, by the three transposed 128-column slices of the weight, and adds the three products, ten thousand rows at a
  grid point. On the extended reals the two agree entry by entry:

  * a contraction over 384 columns is the sum of the contractions over its three blocks of 128 columns, by
    commutativity and associativity of addition alone (`Law.lean`);
  * a clipped count is at least one, so it is not zero, and multiplying by the reciprocal of a nonzero number is dividing
    by it (`Law.lean`) — no entry need be finite, and the precondition is never opened.

  `Layer.lean` states the common value `layer` and reads the reference's result as it; `BlockEntry.lean` reads one
  entry of what a grid point computes; `WindowArrays.lean` reads the arrays the host prepares for the region;
  `OutputArray.lean` puts the ten blocks together into the kernel's result array. The neighbour sums and counts
  themselves are computed by the same host operations in both programs and are never opened.
-/
import proofs.«136234_j81329500717451_2_alg».proof.Defs
import proofs.«136234_j81329500717451_2_alg».proof.Proof.Gen.Kernel
import proofs.«136234_j81329500717451_2_alg».proof.Proof.Gen.Kernel.Skeleton
import proofs.«136234_j81329500717451_2_alg».proof.Proof.Gen.Kernel.Launch
import proofs.«136234_j81329500717451_2_alg».proof.Proof.Gen.Kernel.Points
import proofs.«136234_j81329500717451_2_alg».proof.Proof.Gen.Kernel.Frame
import proofs.«136234_j81329500717451_2_alg».proof.Proof.Gen.KernelIdeal
import proofs.«136234_j81329500717451_2_alg».proof.Proof.Gen.KernelIdeal.Skeleton
import proofs.«136234_j81329500717451_2_alg».proof.Proof.Gen.KernelIdeal.Launch
import proofs.«136234_j81329500717451_2_alg».proof.Proof.Gen.KernelIdeal.Points
import proofs.«136234_j81329500717451_2_alg».proof.Proof.Gen.KernelIdeal.Frame
import proofs.«136234_j81329500717451_2_alg».proof.Proof.Gen.ReferenceIdeal
import proofs.«136234_j81329500717451_2_alg».proof.Proof.Gen.Pre_finite_inputs
import proofs.«136234_j81329500717451_2_alg».proof.Proof.Gen.KernelIdeal.Value
import proofs.«136234_j81329500717451_2_alg».proof.Proof.Gen.ReferenceIdeal.Run
import proofs.«136234_j81329500717451_2_alg».proof.Proof.Gen.ReferenceIdeal.Read
import proofs.«136234_j81329500717451_2_alg».proof.Proof.Layer
import proofs.«136234_j81329500717451_2_alg».proof.Proof.OutputArray
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read on the extended reals. -/
theorem preserves : Cert.preserves_Kernel_KernelIdeal := trivial

/-- From memories that agree on the arguments both programs end with the layer's output of those arguments. -/
theorem algebraic : Cert.algebraic_KernelIdeal_ReferenceIdeal := by
  intro m ρ m' ρ' _ hagree
  refine ⟨fun c => Cert.ReferenceIdeal.Layer.layer
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.OutputArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v45_eq, Cert.ReferenceIdeal.Layer.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
